-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x200 : Shape := ⟨2, ![16384, 200]⟩
abbrev S8 : Shape := ⟨1, ![8]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel
  bcast_S_S8 : S_.BroadcastsInDim S8 (![] : Fin 0 → Fin S8.rank)
  reducesTo_S8_S_d0 : S8.ReducesTo [0] S_

variable [Facts]

def fn_part1 {F : FTy → Type} [FloatOps F] (main_arg1 : IVec S16384x200 32) (main_v12 : IVec S_ 1) (main_v15 : IVec S_ 1) : IVec S_ 1 :=
  let main_v16 : IVec S_ 1 := andi main_v12 main_v15
  let main_c_6 : IVec S_ 32 := constantI S_ 32 8#32
  let main_v17 : IVec S16384x200 32 := broadcastInDim S16384x200 ![] bcast_S_S16384x200 main_c_6
  let main_v18 : IVec S16384x200 1 := cmpi .sle main_arg1 main_v17
  let main_c_7 : IVec S_ 1 := constantI S_ 1 1#1
  let main_v19 : IVec S_ 1 := (fun x v => Host.reduce IntOp.andi x v reducesTo_S16384x200_S_d0_1 h_S_) main_v18 main_c_7
  let main_v20 : IVec S_ 1 := andi main_v16 main_v19
  main_v20

def fn {F : FTy → Type} [FloatOps F] (main_arg0 : FVec F S16384x200 .f32) (main_arg1 : IVec S16384x200 32) (main_arg2 : FVec F S8 .f32) : IVec S_ 1 :=
  let main_v0 : FVec F S16384x200 .f32 := Host.absf main_arg0
  let main_cst : FVec F S_ .f32 := constant S_ .f32 0x7F800000#32
  let main_v1 : FVec F S16384x200 .f32 := broadcastInDim S16384x200 ![] bcast_S_S16384x200 main_cst
  let main_v2 : IVec S16384x200 1 := cmpf .olt main_v0 main_v1
  let main_c : IVec S_ 1 := constantI S_ 1 1#1
  let main_v3 : IVec S_ 1 := (fun x v => Host.reduce IntOp.andi x v reducesTo_S16384x200_S_d0_1 h_S_) main_v2 main_c
  let main_v4 : FVec F S8 .f32 := Host.absf main_arg2
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_cst_2 : FVec F S_ .f32 := constant S_ .f32 0x00000000#32
  let main_v9 : FVec F S16384x200 .f32 := broadcastInDim S16384x200 ![] bcast_S_S16384x200 main_cst_2
  let main_v10 : IVec S16384x200 1 := cmpf .ogt main_arg0 main_v9
  let main_c_3 : IVec S_ 1 := constantI S_ 1 1#1
  let main_v11 : IVec S_ 1 := (fun x v => Host.reduce IntOp.andi x v reducesTo_S16384x200_S_d0_1 h_S_) main_v10 main_c_3
  let main_v12 : IVec S_ 1 := andi main_v8 main_v11
  let main_c_4 : IVec S_ 32 := constantI S_ 32 1#32
  let main_v13 : IVec S16384x200 32 := broadcastInDim S16384x200 ![] bcast_S_S16384x200 main_c_4
  let main_v14 : IVec S16384x200 1 := cmpi .sge main_arg1 main_v13
  let main_c_5 : IVec S_ 1 := constantI S_ 1 1#1
  let main_v15 : IVec S_ 1 := (fun x v => Host.reduce IntOp.andi x v reducesTo_S16384x200_S_d0_1 h_S_) main_v14 main_c_5
  fn_part1 (F := F) main_arg1 main_v12 main_v15
-- ==== Kernel.lean ====
abbrev S16384x200 : Shape := ⟨2, ![16384, 200]⟩
abbrev S8 : Shape := ⟨1, ![8]⟩
abbrev S_ : Shape := ⟨0, ![]⟩
abbrev S1x8 : Shape := ⟨2, ![1, 8]⟩
abbrev S2x8 : Shape := ⟨2, ![2, 8]⟩
abbrev S512x200 : Shape := ⟨2, ![512, 200]⟩
abbrev S1x1 : Shape := ⟨2, ![1, 1]⟩

abbrev nBuf : Space → Nat
  | .hbm => 17
  | .vmem => 7
  | .smem => 0
  | _ => 0

abbrev bufTy : (tb : Table) → Fin (tcTables nBuf tb) → BufTy
  | .hbm, ⟨0, _⟩ => ⟨S16384x200, .f32⟩
  | .hbm, ⟨1, _⟩ => ⟨S16384x200, .i32⟩
  | .hbm, ⟨2, _⟩ => ⟨S8, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .i1⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S1x8, .f32⟩
  | .hbm, ⟨14, _⟩ => ⟨S1x8, .f32⟩
  | .hbm, ⟨15, _⟩ => ⟨S2x8, .f32⟩
  | .hbm, ⟨16, _⟩ => ⟨S16384x200, .f32⟩
  | .local _ .vmem, ⟨0, _⟩ => ⟨S2x8, .f32⟩
  | .local _ .vmem, ⟨1, _⟩ => ⟨S512x200, .f32⟩
  | .local _ .vmem, ⟨2, _⟩ => ⟨S512x200, .f32⟩
  | .local _ .vmem, ⟨3, _⟩ => ⟨S512x200, .i32⟩
  | .local _ .vmem, ⟨4, _⟩ => ⟨S512x200, .i32⟩
  | .local _ .vmem, ⟨5, _⟩ => ⟨S512x200, .f32⟩
  | .local _ .vmem, ⟨6, _⟩ => ⟨S512x200, .f32⟩
  | _, _ => ⟨S16384x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x200 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S8 : S_.BroadcastsInDim S8 (![] : Fin 0 → Fin S8.rank)
  bcast_S8_S1x8_1 : S8.BroadcastsInDim S1x8 (![1] : Fin 1 → Fin S1x8.rank)
  concatenates_S1x8_S1x8_S2x8_d0 : Shape.Concatenates [S1x8, S1x8] S2x8 0
  inb_S512x200_S512x200_0_0 : ∀ a, (![0, 0] : Fin 2 → Nat) a + S512x200.size a ≤ S512x200.size a
  h_S512x200 : 0 < S512x200.numel
  inb_S2x8_S1x1_0_0 : ∀ a, (![0, 0] : Fin 2 → Nat) a + S1x1.size a ≤ S2x8.size a
  h_S1x1 : 0 < S1x1.numel
  inpos_S1x1_p0_0 : ∀ a, (![0, 0] : Fin 2 → Nat) a < S1x1.size a
  inb_S2x8_S1x1_1_0 : ∀ a, (![1, 0] : Fin 2 → Nat) a + S1x1.size a ≤ S2x8.size a
  inb_S2x8_S1x1_0_1 : ∀ a, (![0, 1] : Fin 2 → Nat) a + S1x1.size a ≤ S2x8.size a
  inb_S2x8_S1x1_1_1 : ∀ a, (![1, 1] : Fin 2 → Nat) a + S1x1.size a ≤ S2x8.size a
  inb_S2x8_S1x1_0_2 : ∀ a, (![0, 2] : Fin 2 → Nat) a + S1x1.size a ≤ S2x8.size a
  inb_S2x8_S1x1_1_2 : ∀ a, (![1, 2] : Fin 2 → Nat) a + S1x1.size a ≤ S2x8.size a
  inb_S2x8_S1x1_0_3 : ∀ a, (![0, 3] : Fin 2 → Nat) a + S1x1.size a ≤ S2x8.size a
  inb_S2x8_S1x1_1_3 : ∀ a, (![1, 3] : Fin 2 → Nat) a + S1x1.size a ≤ S2x8.size a
  inb_S2x8_S1x1_0_4 : ∀ a, (![0, 4] : Fin 2 → Nat) a + S1x1.size a ≤ S2x8.size a
  inb_S2x8_S1x1_1_4 : ∀ a, (![1, 4] : Fin 2 → Nat) a + S1x1.size a ≤ S2x8.size a
  inb_S2x8_S1x1_0_5 : ∀ a, (![0, 5] : Fin 2 → Nat) a + S1x1.size a ≤ S2x8.size a
  inb_S2x8_S1x1_1_5 : ∀ a, (![1, 5] : Fin 2 → Nat) a + S1x1.size a ≤ S2x8.size a
  inb_S2x8_S1x1_0_6 : ∀ a, (![0, 6] : Fin 2 → Nat) a + S1x1.size a ≤ S2x8.size a
  inb_S2x8_S1x1_1_6 : ∀ a, (![1, 6] : Fin 2 → Nat) a + S1x1.size a ≤ S2x8.size a
  inb_S2x8_S1x1_0_7 : ∀ a, (![0, 7] : Fin 2 → Nat) a + S1x1.size a ≤ S2x8.size a
  inb_S2x8_S1x1_1_7 : ∀ a, (![1, 7] : Fin 2 → Nat) a + S1x1.size a ≤ S2x8.size a
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x8.size a ≤ S2x8.size a
  hwx0_0 : ∀ i : grid0.Coords, EltTy.bits .f32 = 32 ∨ (Rect.block (s := S2x8) S2x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x200.size a ≤ S16384x200.size a
  hwx0_1 : ∀ i : grid0.Coords, EltTy.bits .f32 = 32 ∨ (Rect.block (s := S16384x200) S512x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x200.size a ≤ S16384x200.size a
  hwx0_2 : ∀ i : grid0.Coords, EltTy.bits .i32 = 32 ∨ (Rect.block (s := S16384x200) S512x200.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x200.size a ≤ S16384x200.size a
  hwx0_3 : ∀ i : grid0.Coords, EltTy.bits .f32 = 32 ∨ (Rect.block (s := S16384x200) S512x200.size (cc0_transform_3 i) (hinb0_3 i)).WholeWords (EltTy.packing .f32)

variable [Facts₀]

abbrev win0_0 : Pipeline.Window sig grid0 :=
  Pipeline.Window.ofSpec (Memref.whole main_v8) S2x8.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x200.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x200 : Shape := ⟨2, ![16384, 200]⟩
abbrev S8 : Shape := ⟨1, ![8]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S16384x200, .f32⟩
  | .hbm, ⟨1, _⟩ => ⟨S16384x200, .i32⟩
  | .hbm, ⟨2, _⟩ => ⟨S8, .f32⟩
  | .hbm, ⟨3, _⟩ => ⟨S_, .i32⟩
  | .hbm, ⟨4, _⟩ => ⟨S16384x200, .i32⟩
  | .hbm, ⟨5, _⟩ => ⟨S16384x200, .i32⟩
  | .hbm, ⟨6, _⟩ => ⟨S_, .i32⟩
  | .hbm, ⟨7, _⟩ => ⟨S16384x200, .i32⟩
  | .hbm, ⟨8, _⟩ => ⟨S16384x200, .i1⟩
  | .hbm, ⟨9, _⟩ => ⟨S_, .i32⟩
  | .hbm, ⟨10, _⟩ => ⟨S16384x200, .i32⟩
  | .hbm, ⟨11, _⟩ => ⟨S16384x200, .i32⟩
  | .hbm, ⟨12, _⟩ => ⟨S16384x200, .i32⟩
  | .hbm, ⟨13, _⟩ => ⟨S16384x200x1, .i32⟩
  | .hbm, ⟨14, _⟩ => ⟨S1, .i32⟩
  | .hbm, ⟨15, _⟩ => ⟨S_, .i32⟩
  | .hbm, ⟨16, _⟩ => ⟨S16384x200x1, .i32⟩
  | .hbm, ⟨17, _⟩ => ⟨S16384x200x1, .i1⟩
  | .hbm, ⟨18, _⟩ => ⟨S1x1x1, .i32⟩
  | .hbm, ⟨19, _⟩ => ⟨S16384x200x1, .i32⟩
  | .hbm, ⟨20, _⟩ => ⟨S16384x200x1, .i1⟩
  | .hbm, ⟨21, _⟩ => ⟨S16384x200x1, .i1⟩
  | .hbm, ⟨22, _⟩ => ⟨S_, .i1⟩
  | .hbm, ⟨23, _⟩ => ⟨S16384x200, .i1⟩
  | .hbm, ⟨24, _⟩ => ⟨S16384x200, .f32⟩
  | .hbm, ⟨25, _⟩ => ⟨S_, .f32⟩
  | .hbm, ⟨26, _⟩ => ⟨S16384x200, .f32⟩
  | .hbm, ⟨27, _⟩ => ⟨S16384x200, .f32⟩
  | .hbm, ⟨28, _⟩ => ⟨S16384x200, .f32⟩
  | .hbm, ⟨29, _⟩ => ⟨S_, .f32⟩
  | .hbm, ⟨30, _⟩ => ⟨S16384x200, .f32⟩
  | .hbm, ⟨31, _⟩ => ⟨S16384x200, .i1⟩
  | .hbm, ⟨32, _⟩ => ⟨S16384x200, .f32⟩
  | .hbm, ⟨33, _⟩ => ⟨S16384x200, .f32⟩
  | .hbm, ⟨34, _⟩ => ⟨S_, .f32⟩
  | .hbm, ⟨35, _⟩ => ⟨S16384x200, .f32⟩
  | .hbm, ⟨36, _⟩ => ⟨S16384x200, .f32⟩
  | .hbm, ⟨37, _⟩ => ⟨S16384x200, .f32⟩
  | .hbm, ⟨38, _⟩ => ⟨S16384x200, .f32⟩
  | _, _ => ⟨S16384x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩

abbrev nD : Nat := 1
abbrev τ : Topo := Topo.v7x

variable {F : FTy → Type} [FloatOps F]

class Facts₀ : Prop where
  bcast_S_S16384x200 : S_.BroadcastsInDim S16384x200 (![] : Fin 0 → Fin S16384x200.rank)
  bcast_S16384x200_S16384x200x1_0_1 : S16384x200.BroadcastsInDim S16384x200x1 (![0, 1] : Fin 2 → Fin S16384x200x1.rank)
  bcast_S_S16384x200x1 : S_.BroadcastsInDim S16384x200x1 (![] : Fin 0 → Fin S16384x200x1.rank)
  bcast_S1_S1x1x1_2 : S1.BroadcastsInDim S1x1x1 (![2] : Fin 1 → Fin S1x1x1.rank)
  bcast_S1x1x1_S16384x200x1_0_1_2 : S1x1x1.BroadcastsInDim S16384x200x1 (![0, 1, 2] : Fin 3 → Fin S16384x200x1.rank)
  reducesTo_S16384x200x1_S16384x200_d2 : S16384x200x1.ReducesTo [2] S16384x200
  h_S_ : 0 < S_.numel
  gather_S8_S16384x200x1_S16384x200_n_0_n_n_0_2_1_wf : GatherDims.WF S8 S16384x200x1 S16384x200 [] [0] [] [0] [] 2 ![1]

variable [Facts₀]

def gather_S8_S16384x200x1_S16384x200_n_0_n_n_0_2_1 : GatherDims S8 S16384x200x1 S16384x200 where
  offsetDims := []
  collapsedSliceDims := [0]
  operandBatchingDims := []
  startIndicesBatchingDims := []
  startIndexMap := [0]
  indexVectorDim := 2
  sliceSizes := ![1]
  wf := gather_S8_S16384x200x1_S16384x200_n_0_n_n_0_2_1_wf

class Facts : Prop extends Facts₀ where

variable [Facts]
-- ==== Proof.RefRun.lean ====
/-
  The reference program run to its end, and what its result buffer then holds.

  The reference's @main is a straight line once its three module-local functions are read at their call sites: the
  index `group − 1`; `take` (a negative index moved up by 8, the in-range test `0 ≤ idx ≤ 7` reduced by `and` over the
  unit index axis, the gather from the eight exponents, and a select against a filler word where the test fails); then
  the transform itself, `|lam| < 0.01 ? log x : (x ^ lam − 1) / lam`. `ops` lists those thirty-six operations in order;
  every weakly fair execution terminates with each buffer at the operations' fold (`run`), and the fold at the result
  buffer is one pure function `refOut` of the three argument arrays, the exponent picked being `takeLam`.
-/
import proofs.«106995_g17008070492787_cont_7to1_1330_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

/-- The start indices `group − 1`. -/
def idxArr (g : IVec S16384x200 32) : IVec S16384x200 32 :=
  subi g (broadcastInDim S16384x200 ![] bcast_S_S16384x200 (constantI S_ 32 1#32))

/-- The start indices with the negative ones moved up by 8. -/
def nidxArr (g : IVec S16384x200 32) : IVec S16384x200 32 :=
  select (cmpi .slt (idxArr g) (broadcastInDim S16384x200 ![] bcast_S_S16384x200 (constantI S_ 32 0#32)))
    (addi (idxArr g) (broadcastInDim S16384x200 ![] bcast_S_S16384x200 (constantI S_ 32 8#32))) (idxArr g)

/-- The same with a trailing unit axis: the gather's start-index array. -/
def startArr (g : IVec S16384x200 32) : IVec S16384x200x1 32 :=
  broadcastInDim S16384x200x1 ![0, 1] bcast_S16384x200_S16384x200x1_0_1 (nidxArr g)

/-- The in-range test `0 ≤ idx ≤ 7`, before its `and` over the unit axis. -/
def inRange (g : IVec S16384x200 32) : IVec S16384x200x1 1 :=
  andi (cmpi .sge (startArr g) (broadcastInDim S16384x200x1 ![] bcast_S_S16384x200x1 (constantI S_ 32 0#32)))
    (cmpi .sle (startArr g) (broadcastInDim S16384x200x1 ![0, 1, 2] bcast_S1x1x1_S16384x200x1_0_1_2
      (broadcastInDim S1x1x1 ![2] bcast_S1_S1x1x1_2 (constantI S1 32 7#32))))

/-- The exponent array `take(l, group − 1)`: the gather from `l` at the start indices, and the filler word where the
    index is outside `0 … 7`. -/
def takeLam (g : IVec S16384x200 32) (l : FVec F S8 .f32) : FVec F S16384x200 .f32 :=
  select (Host.reduce IntOp.andi (inRange g) (constantI S_ 1 1#1) reducesTo_S16384x200x1_S16384x200_d2 h_S_)
    (Host.gather gather_S8_S16384x200x1_S16384x200_n_0_n_n_0_2_1 l (startArr g))
    (broadcastInDim S16384x200 ![] bcast_S_S16384x200 (constant S_ .f32 0x7FC00000#32))

/-- The reference's result as one function of its argument arrays. -/
def refOut (x : FVec F S16384x200 .f32) (g : IVec S16384x200 32) (l : FVec F S8 .f32) : FVec F S16384x200 .f32 :=
  select
    (cmpf .olt (Host.absf (takeLam g l))
      (broadcastInDim S16384x200 ![] bcast_S_S16384x200 (constant S_ .f32 0x3C23D70A#32)))
    (Host.log x)
    (Host.divf
      (subf (Host.powf x (takeLam g l))
        (broadcastInDim S16384x200 ![] bcast_S_S16384x200 (constant S_ .f32 0x3F800000#32)))
      (takeLam g l))

/-- @main's operations in order, each callee's lines at its call site over that call's buffers. -/
abbrev ops : List (HloOp τ sig (Elt F)) :=
  [ nullary main_c (constantI S_ 32 1#32),
    unary main_c main_v0 (broadcastInDim S16384x200 ![] bcast_S_S16384x200 : (⟨S_, .i32⟩ : BufTy).Contents (Elt F) → (⟨S16384x200, .i32⟩ : BufTy).Contents (Elt F)),
    binary main_arg1 main_v0 main_v1 (subi : (⟨S16384x200, .i32⟩ : BufTy).Contents (Elt F) → (⟨S16384x200, .i32⟩ : BufTy).Contents (Elt F) → (⟨S16384x200, .i32⟩ : BufTy).Contents (Elt F)),
    nullary main_call0_c (constantI S_ 32 0#32),
    unary main_call0_c main_call0_v0 (broadcastInDim S16384x200 ![] bcast_S_S16384x200 : (⟨S_, .i32⟩ : BufTy).Contents (Elt F) → (⟨S16384x200, .i32⟩ : BufTy).Contents (Elt F)),
    binary main_v1 main_call0_v0 main_call0_v1 (cmpi .slt : (⟨S16384x200, .i32⟩ : BufTy).Contents (Elt F) → (⟨S16384x200, .i32⟩ : BufTy).Contents (Elt F) → (⟨S16384x200, .i1⟩ : BufTy).Contents (Elt F)),
    nullary main_call0_c_0 (constantI S_ 32 8#32),
    unary main_call0_c_0 main_call0_v2 (broadcastInDim S16384x200 ![] bcast_S_S16384x200 : (⟨S_, .i32⟩ : BufTy).Contents (Elt F) → (⟨S16384x200, .i32⟩ : BufTy).Contents (Elt F)),
    binary main_v1 main_call0_v2 main_call0_v3 (addi : (⟨S16384x200, .i32⟩ : BufTy).Contents (Elt F) → (⟨S16384x200, .i32⟩ : BufTy).Contents (Elt F) → (⟨S16384x200, .i32⟩ : BufTy).Contents (Elt F)),
    ternary main_call0_v1 main_call0_v3 main_v1 main_call0_v4 (select : (⟨S16384x200, .i1⟩ : BufTy).Contents (Elt F) → (⟨S16384x200, .i32⟩ : BufTy).Contents (Elt F) → (⟨S16384x200, .i32⟩ : BufTy).Contents (Elt F) → (⟨S16384x200, .i32⟩ : BufTy).Contents (Elt F)),
    unary main_call0_v4 main_call0_v5 (broadcastInDim S16384x200x1 ![0, 1] bcast_S16384x200_S16384x200x1_0_1 : (⟨S16384x200, .i32⟩ : BufTy).Contents (Elt F) → (⟨S16384x200x1, .i32⟩ : BufTy).Contents (Elt F)),
    nullary main_call0_c_1 (constantI S1 32 7#32),
    nullary main_call0_c_2 (constantI S_ 32 0#32),
    unary main_call0_c_2 main_call0_v6 (broadcastInDim S16384x200x1 ![] bcast_S_S16384x200x1 : (⟨S_, .i32⟩ : BufTy).Contents (Elt F) → (⟨S16384x200x1, .i32⟩ : BufTy).Contents (Elt F)),
    binary main_call0_v5 main_call0_v6 main_call0_v7 (cmpi .sge : (⟨S16384x200x1, .i32⟩ : BufTy).Contents (Elt F) → (⟨S16384x200x1, .i32⟩ : BufTy).Contents (Elt F) → (⟨S16384x200x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S16384x200x1 ![0, 1, 2] bcast_S1x1x1_S16384x200x1_0_1_2 : (⟨S1x1x1, .i32⟩ : BufTy).Contents (Elt F) → (⟨S16384x200x1, .i32⟩ : BufTy).Contents (Elt F)),
    binary main_call0_v5 main_call0_v9 main_call0_v10 (cmpi .sle : (⟨S16384x200x1, .i32⟩ : BufTy).Contents (Elt F) → (⟨S16384x200x1, .i32⟩ : BufTy).Contents (Elt F) → (⟨S16384x200x1, .i1⟩ : BufTy).Contents (Elt F)),
    binary main_call0_v7 main_call0_v10 main_call0_v11 (andi : (⟨S16384x200x1, .i1⟩ : BufTy).Contents (Elt F) → (⟨S16384x200x1, .i1⟩ : BufTy).Contents (Elt F) → (⟨S16384x200x1, .i1⟩ : BufTy).Contents (Elt F)),
    nullary main_call0_c_3 (constantI S_ 1 1#1),
    binary main_call0_v11 main_call0_c_3 main_call0_v12 ((fun x v => Host.reduce IntOp.andi x v reducesTo_S16384x200x1_S16384x200_d2 h_S_) : (⟨S16384x200x1, .i1⟩ : BufTy).Contents (Elt F) → (⟨S_, .i1⟩ : BufTy).Contents (Elt F) → (⟨S16384x200, .i1⟩ : BufTy).Contents (Elt F)),
    binary main_arg2 main_call0_v5 main_call0_v13 ((fun x i => Host.gather gather_S8_S16384x200x1_S16384x200_n_0_n_n_0_2_1 x i) : (⟨S8, .f32⟩ : BufTy).Contents (Elt F) → (⟨S16384x200x1, .i32⟩ : BufTy).Contents (Elt F) → (⟨S16384x200, .f32⟩ : BufTy).Contents (Elt F)),
    nullary main_call0_cst (constant S_ .f32 0x7FC00000#32),
    unary main_call0_cst main_call0_v14 (broadcastInDim S16384x200 ![] bcast_S_S16384x200 : (⟨S_, .f32⟩ : BufTy).Contents (Elt F) → (⟨S16384x200, .f32⟩ : BufTy).Contents (Elt F)),
    ternary main_call0_v12 main_call0_v13 main_call0_v14 main_v2 (select : (⟨S16384x200, .i1⟩ : BufTy).Contents (Elt F) → (⟨S16384x200, .f32⟩ : BufTy).Contents (Elt F) → (⟨S16384x200, .f32⟩ : BufTy).Contents (Elt F) → (⟨S16384x200, .f32⟩ : BufTy).Contents (Elt F)),
    unary main_v2 main_v3 (Host.absf : (⟨S16384x200, .f32⟩ : BufTy).Contents (Elt F) → (⟨S16384x200, .f32⟩ : BufTy).Contents (Elt F)),
    nullary main_cst (constant S_ .f32 0x3C23D70A#32),
    unary main_cst main_v4 (broadcastInDim S16384x200 ![] bcast_S_S16384x200 : (⟨S_, .f32⟩ : BufTy).Contents (Elt F) → (⟨S16384x200, .f32⟩ : BufTy).Contents (Elt F)),
    binary main_v3 main_v4 main_v5 (cmpf .olt : (⟨S16384x200, .f32⟩ : BufTy).Contents (Elt F) → (⟨S16384x200, .f32⟩ : BufTy).Contents (Elt F) → (⟨S16384x200, .i1⟩ : BufTy).Contents (Elt F)),
    unary main_arg0 main_v6 (Host.log : (⟨S16384x200, .f32⟩ : BufTy).Contents (Elt F) → (⟨S16384x200, .f32⟩ : BufTy).Contents (Elt F)),
    binary main_arg0 main_v2 main_v7 (Host.powf : (⟨S16384x200, .f32⟩ : BufTy).Contents (Elt F) → (⟨S16384x200, .f32⟩ : BufTy).Contents (Elt F) → (⟨S16384x200, .f32⟩ : BufTy).Contents (Elt F)),
    nullary main_cst_0 (constant S_ .f32 0x3F800000#32),
    unary main_cst_0 main_v8 (broadcastInDim S16384x200 ![] bcast_S_S16384x200 : (⟨S_, .f32⟩ : BufTy).Contents (Elt F) → (⟨S16384x200, .f32⟩ : BufTy).Contents (Elt F)),
    binary main_v7 main_v8 main_v9 (subf : (⟨S16384x200, .f32⟩ : BufTy).Contents (Elt F) → (⟨S16384x200, .f32⟩ : BufTy).Contents (Elt F) → (⟨S16384x200, .f32⟩ : BufTy).Contents (Elt F)),
    binary main_v9 main_v2 main_v10 (Host.divf : (⟨S16384x200, .f32⟩ : BufTy).Contents (Elt F) → (⟨S16384x200, .f32⟩ : BufTy).Contents (Elt F) → (⟨S16384x200, .f32⟩ : BufTy).Contents (Elt F)),
    ternary main_v5 main_v6 main_v10 main_v11 (select : (⟨S16384x200, .i1⟩ : BufTy).Contents (Elt F) → (⟨S16384x200, .f32⟩ : BufTy).Contents (Elt F) → (⟨S16384x200, .f32⟩ : BufTy).Contents (Elt F) → (⟨S16384x200, .f32⟩ : BufTy).Contents (Elt F)) ]

/-- The same operations with each callee's lines spelled through that call's typed references, as the callees
    print them. -/
abbrev opsT : List (HloOp τ sig (Elt F)) :=
  [ nullary main_c (constantI S_ 32 1#32),
    unary main_c main_v0 (broadcastInDim S16384x200 ![] bcast_S_S16384x200 : (⟨S_, .i32⟩ : BufTy).Contents (Elt F) → (⟨S16384x200, .i32⟩ : BufTy).Contents (Elt F)),
    binary main_arg1 main_v0 main_v1 (subi : (⟨S16384x200, .i32⟩ : BufTy).Contents (Elt F) → (⟨S16384x200, .i32⟩ : BufTy).Contents (Elt F) → (⟨S16384x200, .i32⟩ : BufTy).Contents (Elt F)),
    TRef.nullary main_call0.c (constantI S_ 32 0#32),
    TRef.unary main_call0.c main_call0.v0 (broadcastInDim S16384x200 ![] bcast_S_S16384x200),
    TRef.binary (.of main_v1 : TRef sig ⟨S16384x200, .i32⟩) main_call0.v0 main_call0.v1 (cmpi .slt),
    TRef.nullary main_call0.c_0 (constantI S_ 32 8#32),
    TRef.unary main_call0.c_0 main_call0.v2 (broadcastInDim S16384x200 ![] bcast_S_S16384x200),
    TRef.binary (.of main_v1 : TRef sig ⟨S16384x200, .i32⟩) main_call0.v2 main_call0.v3 addi,
    TRef.ternary main_call0.v1 main_call0.v3 (.of main_v1 : TRef sig ⟨S16384x200, .i32⟩) main_call0.call0.v0 select,
    TRef.unary main_call0.call0.v0 main_call0.v5 (broadcastInDim S16384x200x1 ![0, 1] bcast_S16384x200_S16384x200x1_0_1),
    TRef.nullary main_call0.c_1 (constantI S1 32 7#32),
    TRef.nullary main_call0.c_2 (constantI S_ 32 0#32),
    TRef.unary main_call0.c_2 main_call0.v6 (broadcastInDim S16384x200x1 ![] bcast_S_S16384x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x200x1 ![0, 1, 2] bcast_S1x1x1_S16384x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x200x1_S16384x200_d2 h_S_),
    TRef.binary (.of main_arg2 : TRef sig ⟨S8, .f32⟩) main_call0.v5 main_call0.v13 (fun x i => Host.gather gather_S8_S16384x200x1_S16384x200_n_0_n_n_0_2_1 x i),
    TRef.nullary main_call0.cst (constant S_ .f32 0x7FC00000#32),
    TRef.unary main_call0.cst main_call0.v14 (broadcastInDim S16384x200 ![] bcast_S_S16384x200),
    TRef.ternary main_call0.v12 main_call0.v13 main_call0.v14 main_call0.v15 select,
    unary main_v2 main_v3 (Host.absf : (⟨S16384x200, .f32⟩ : BufTy).Contents (Elt F) → (⟨S16384x200, .f32⟩ : BufTy).Contents (Elt F)),
    nullary main_cst (constant S_ .f32 0x3C23D70A#32),
    unary main_cst main_v4 (broadcastInDim S16384x200 ![] bcast_S_S16384x200 : (⟨S_, .f32⟩ : BufTy).Contents (Elt F) → (⟨S16384x200, .f32⟩ : BufTy).Contents (Elt F)),
    binary main_v3 main_v4 main_v5 (cmpf .olt : (⟨S16384x200, .f32⟩ : BufTy).Contents (Elt F) → (⟨S16384x200, .f32⟩ : BufTy).Contents (Elt F) → (⟨S16384x200, .i1⟩ : BufTy).Contents (Elt F)),
    unary main_arg0 main_v6 (Host.log : (⟨S16384x200, .f32⟩ : BufTy).Contents (Elt F) → (⟨S16384x200, .f32⟩ : BufTy).Contents (Elt F)),
    binary main_arg0 main_v2 main_v7 (Host.powf : (⟨S16384x200, .f32⟩ : BufTy).Contents (Elt F) → (⟨S16384x200, .f32⟩ : BufTy).Contents (Elt F) → (⟨S16384x200, .f32⟩ : BufTy).Contents (Elt F)),
    nullary main_cst_0 (constant S_ .f32 0x3F800000#32),
    unary main_cst_0 main_v8 (broadcastInDim S16384x200 ![] bcast_S_S16384x200 : (⟨S_, .f32⟩ : BufTy).Contents (Elt F) → (⟨S16384x200, .f32⟩ : BufTy).Contents (Elt F)),
    binary main_v7 main_v8 main_v9 (subf : (⟨S16384x200, .f32⟩ : BufTy).Contents (Elt F) → (⟨S16384x200, .f32⟩ : BufTy).Contents (Elt F) → (⟨S16384x200, .f32⟩ : BufTy).Contents (Elt F)),
    binary main_v9 main_v2 main_v10 (Host.divf : (⟨S16384x200, .f32⟩ : BufTy).Contents (Elt F) → (⟨S16384x200, .f32⟩ : BufTy).Contents (Elt F) → (⟨S16384x200, .f32⟩ : BufTy).Contents (Elt F)),
    TRef.ternary (.of main_v5 : TRef sig ⟨S16384x200, .i1⟩) (.of main_v6 : TRef sig ⟨S16384x200, .f32⟩) (.of main_v10 : TRef sig ⟨S16384x200, .f32⟩) main_call1.v0 select ]

-- thirty-six binds re-associated: the rewrite under the chain recurses once per statement
set_option maxRecDepth 2048 in
/-- @main is that straight line: the callees' definitions unfolded at their calls, both sides are one chain of steps
    once sequencing is re-associated. -/
theorem main_eqT (c : Dev nD) : main (F := F) c = seq opsT := by
  simp only [main, fn_take.body, fn_where.body, fn_where_0.body, seq, bind_assoc, pure_bind]

attribute [local irreducible] Host.reduce Host.gather in
set_option maxRecDepth 16384 in
/-- Operation by operation the two spellings agree: a callee's line moves its operands' contents between the value's
    type and the buffer's, which at these literal buffers is the identity. -/
theorem opsT_eq : (opsT : List (HloOp τ sig (Elt F))) = ops :=
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  rfl

theorem main_eq (c : Dev nD) : main (F := F) c = seq ops := (main_eqT c).trans (congrArg seq opsT_eq)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    unary_bufs_sub .., nullary_bufs_sub .., unary_bufs_sub .., binary_bufs_sub .., unary_bufs_sub .., binary_bufs_sub ..,
    nullary_bufs_sub .., unary_bufs_sub .., binary_bufs_sub .., binary_bufs_sub .., ternary_bufs_sub ..⟩

attribute [local irreducible] Host.reduce Host.gather in
set_option maxRecDepth 8192 in
set_option maxHeartbeats 1000000 in
/-- The fold at the result buffer is `refOut` of the contents at the three argument buffers. -/
theorem out_eq (V : Valuation τ sig (Elt F)) :
    after ops V (main_v11 : DevRef τ sig)
      = refOut (V (main_arg0 : DevRef τ sig)) (V (main_arg1 : DevRef τ sig)) (V (main_arg2 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp

/-- On every device, from any memory with zero counters: every weakly fair execution of @main terminates with the
    result buffer at `refOut` of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11)
          = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v11).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefRun

end
-- ==== Proof.BoxCox.lean ====
/-
  The grouped Box–Cox transform of ONE entry, on the extended reals.

  An entry `x` with group id `g` (1-based, eight groups) and per-group exponents `l 0 … l 7` is sent, with
  `lam = l (g − 1)`, to `log x` when `|lam|` is below the threshold f32(0.01) and to `(x ^ lam − 1) / lam` otherwise
  (`refElem`). The other arrangement (`kerElem`) writes the power as `exp (lam · log x)` and the quotient as the product
  with a reciprocal `inv` prepared per group: `1` where `|lam|` is small, `1 / lam` elsewhere (`invOf`). For a positive
  real `x` and a real `lam` the two are one number (`kerElem_eq`): `x ^ lam = exp (log x · lam)` for `0 < x`, and off the
  small branch `lam ≠ 0`, where dividing by `lam` is multiplying by `1 / lam`.

  The group's exponent is picked by a chain of eight tests `g = 8, g = 7, …, g = 2` falling through to group 1
  (`chainSel`); a function applied to every candidate commutes with the chain (`chainSel_map`), and for `g = k + 1` the
  chain picks candidate `k` (`chainSel_of`).
-/
import Idealize.ShloMosaic.PureOps.Ideal
import Idealize.ShloMosaic.Lib.ValueIdx
import Idealize.ShloMosaic.Lib.Affine
import Mathlib.Analysis.SpecialFunctions.Pow.Real

noncomputable section

namespace Cert.BoxCox

open Idealize.ShloMosaic

/-- The word `0x3F800000` is the number one. -/
theorem ofBits_one : Ideal.ofBits .f32 0x3F800000#32 = 1 := by
  simp [Ideal.ofBits, Ideal.ieee, -EReal.coe_mul]; norm_num

/-- The threshold is a positive real number. -/
theorem thr_pos : (0 : EReal) < Ideal.ofBits .f32 0x3C23D70A#32 := by
  simp [Ideal.ofBits, Ideal.ieee, -EReal.coe_mul]

/-- The test `|lam| < threshold`, as the comparison's bit. -/
def small (lam : EReal) : BitVec 1 := Ideal.cmp .olt (max lam (-lam)) (Ideal.ofBits .f32 0x3C23D70A#32)

/-- One entry, as the quotient form: `log x` on the small branch, else `(x ^ lam − 1) / lam`. -/
def refElem (x lam : EReal) : EReal :=
  Scalar.select (small lam) (Ideal.log x) (Ideal.div (Ideal.pow x lam - Ideal.ofBits .f32 0x3F800000#32) lam)

/-- The per-group reciprocal: `1` on the small branch, else `1 / lam`. -/
def invOf (lam : EReal) : EReal :=
  Scalar.select (small lam) (Ideal.ofBits .f32 0x3F800000#32) (Ideal.div (Ideal.ofBits .f32 0x3F800000#32) lam)

/-- One entry, as the product form: `log x` on the small branch, else `(exp (lam · log x) − 1) · inv`. -/
def kerElem (x lam inv : EReal) : EReal :=
  Scalar.select (small lam) (Ideal.log x) ((Ideal.exp (lam * Ideal.log x) - Ideal.ofBits .f32 0x3F800000#32) * inv)

/-- Zero is on the small branch. -/
theorem small_zero : small ((0 : ℝ) : EReal) = 1#1 := by
  unfold small Ideal.cmp
  simp [thr_pos]

/-- For a positive real entry and a real exponent the product form, fed the prepared reciprocal, is the quotient form. -/
theorem kerElem_eq (x lam : ℝ) (hx : 0 < x) :
    kerElem (x : EReal) (lam : EReal) (invOf (lam : EReal)) = refElem (x : EReal) (lam : EReal) := by
  unfold kerElem refElem invOf
  rcases BitVec.eq_zero_or_eq_one (small (lam : EReal)) with h | h
  · rw [h]
    simp only [ValueIdx.select_zero]
    have hlam : lam ≠ 0 := by
      rintro rfl
      rw [small_zero] at h
      exact absurd h (by decide)
    rw [ofBits_one, Ideal.div_coe hlam, Ideal.div_coe hlam, Ideal.log_coe, if_neg (not_le.mpr hx),
      ← EReal.coe_mul, Ideal.exp_coe, Ideal.pow_coe_coe, one_mul]
    have hp : Real.rpow x lam = Real.exp (lam * Real.log x) := by
      show x ^ lam = _
      rw [Real.rpow_def_of_pos hx, mul_comm]
    rw [hp]
  · rw [h]
    simp only [ValueIdx.select_one]

/-! ## The chain of tests on the group id -/

/-- The chain `g = 8 ? t 7 : g = 7 ? t 6 : … : g = 2 ? t 1 : t 0`. -/
def chainSel {α : Type} (g : BitVec 32) (t : Fin 8 → α) : α :=
  Scalar.select (IntOp.cmpi .eq g 8#32) (t 7)
    (Scalar.select (IntOp.cmpi .eq g 7#32) (t 6)
      (Scalar.select (IntOp.cmpi .eq g 6#32) (t 5)
        (Scalar.select (IntOp.cmpi .eq g 5#32) (t 4)
          (Scalar.select (IntOp.cmpi .eq g 4#32) (t 3)
            (Scalar.select (IntOp.cmpi .eq g 3#32) (t 2)
              (Scalar.select (IntOp.cmpi .eq g 2#32) (t 1) (t 0)))))))

/-- A function of every candidate commutes with the chain. -/
theorem chainSel_map {α β : Type} (f : α → β) (g : BitVec 32) (t : Fin 8 → α) :
    chainSel g (fun k => f (t k)) = f (chainSel g t) := by
  unfold chainSel Scalar.select
  split_ifs <;> rfl

/-- A group id between 1 and 8, read signed, is one of the eight words. -/
theorem group_cases (g : BitVec 32) (h1 : 1 ≤ g.toInt) (h8 : g.toInt ≤ 8) :
    g = 1#32 ∨ g = 2#32 ∨ g = 3#32 ∨ g = 4#32 ∨ g = 5#32 ∨ g = 6#32 ∨ g = 7#32 ∨ g = 8#32 := by
  have h : g.toInt = 1 ∨ g.toInt = 2 ∨ g.toInt = 3 ∨ g.toInt = 4 ∨ g.toInt = 5 ∨ g.toInt = 6 ∨ g.toInt = 7
      ∨ g.toInt = 8 := by omega
  rcases h with h | h | h | h | h | h | h | h
  · exact Or.inl (BitVec.eq_of_toInt_eq (by rw [h]; rfl))
  · exact Or.inr (Or.inl (BitVec.eq_of_toInt_eq (by rw [h]; rfl)))
  · exact Or.inr (Or.inr (Or.inl (BitVec.eq_of_toInt_eq (by rw [h]; rfl))))
  · exact Or.inr (Or.inr (Or.inr (Or.inl (BitVec.eq_of_toInt_eq (by rw [h]; rfl)))))
  · exact Or.inr (Or.inr (Or.inr (Or.inr (Or.inl (BitVec.eq_of_toInt_eq (by rw [h]; rfl))))))
  · exact Or.inr (Or.inr (Or.inr (Or.inr (Or.inr (Or.inl (BitVec.eq_of_toInt_eq (by rw [h]; rfl)))))))
  · exact Or.inr (Or.inr (Or.inr (Or.inr (Or.inr (Or.inr (Or.inl (BitVec.eq_of_toInt_eq (by rw [h]; rfl))))))))
  · exact Or.inr (Or.inr (Or.inr (Or.inr (Or.inr (Or.inr (Or.inr (BitVec.eq_of_toInt_eq (by rw [h]; rfl))))))))

end Cert.BoxCox

end
-- ==== Proof.KernelTable.lean ====
/-
  The two-row table the kernel's body reads.

  Before the region the host lays the eight exponents `l` and their prepared reciprocals side by side as a `[2, 8]`
  table: row 0 is `l`, row 1 is `1` where `|l k|` is below the threshold and `1 / l k` elsewhere (`tab`). That is the
  array the region finds behind its first window (`V_main_v8`); read at an entry, row 0 gives `l k` and row 1 gives
  the prepared reciprocal of `l k` (`tab_row0`, `tab_row1`).
-/
import proofs.«106995_g17008070492787_cont_7to1_1330_1_alg».proof.Proof.Gen.KernelIdeal.Frame
import proofs.«106995_g17008070492787_cont_7to1_1330_1_alg».proof.Proof.BoxCox
import Idealize.ShloMosaic.Lib.StableHlo.Run
import Idealize.ShloMosaic.Lib.Pipeline.Value
import Idealize.ShloMosaic.Lib.ValueIdx
import Idealize.ShloMosaic.Lib.IdealHost

noncomputable section

namespace Cert.KernelIdeal.Table

open Cert.KernelIdeal Cert.KernelIdeal.Gen Idealize.ShloMosaic Idealize.ShloMosaic.TcCoe Idealize.SL.Sem
open Idealize.ShloMosaic.StableHlo Idealize.ShloMosaic.ValueIdx

/-- The prepared reciprocals of the eight exponents. -/
def inv (l : FVec Ideal S8 .f32) : FVec Ideal S8 .f32 :=
  select (cmpf .olt (Host.absf l) (broadcastInDim S8 ![] bcast_S_S8 (constant (F := Ideal) S_ .f32 0x3C23D70A#32)))
    (broadcastInDim S8 ![] bcast_S_S8 (constant (F := Ideal) S_ .f32 0x3F800000#32))
    (Host.divf (broadcastInDim S8 ![] bcast_S_S8 (constant (F := Ideal) S_ .f32 0x3F800000#32)) l)

/-- The table: the exponents over their prepared reciprocals. -/
def tab (l : FVec Ideal S8 .f32) : FVec Ideal S2x8 .f32 :=
  concatenate S2x8 0 [⟨S1x8, broadcastInDim S1x8 ![1] bcast_S8_S1x8_1 l⟩,
    ⟨S1x8, broadcastInDim S1x8 ![1] bcast_S8_S1x8_1 (inv l)⟩] concatenates_S1x8_S1x8_S2x8_d0

/-- The region finds the table behind its first window. -/
theorem V_main_v8 (m : (ℓ : Loc nD τ sig) → Buf (Elt Ideal) ℓ) (c : Dev nD) :
    (V m c main_v8 : S2x8.Idx → EReal) = tab (m ((c : Thread nD τ).loc main_arg2)) := by
  dsimp only [Gen.V]
  simp only [Gen.hostOps0, Gen.hostOps0_1, Gen.hostOps0_2, List.flatten_cons, List.flatten_nil, List.append_nil,
    List.cons_append, List.nil_append]
  after_results
  rfl

/-- A vector laid out as a row, read at an entry. -/
theorem row_apply (v : FVec Ideal S8 .f32) (k : Fin 8) :
    broadcastInDim S1x8 ![1] bcast_S8_S1x8_1 v (ix2 (0 : Fin 1) k) = v (ix1 k) :=
  broadcastInDim_apply _ _ _ _ (ix1 k) fun a => by
    match a with
    | ⟨0, _⟩ => rfl

/-- The prepared reciprocal at an entry. -/
theorem inv_apply (l : FVec Ideal S8 .f32) (k : Fin 8) : inv l (ix1 k) = BoxCox.invOf (l (ix1 k)) := by
  have hb : ∀ w, broadcastInDim S8 ![] bcast_S_S8 (constant (F := Ideal) S_ .f32 w) (ix1 k) = Ideal.ofBits .f32 w :=
    fun w => broadcastInDim_scalar_apply _ _ _
  show Scalar.select
      (Ideal.cmp .olt (max (l (ix1 k)) (-(l (ix1 k))))
        (broadcastInDim S8 ![] bcast_S_S8 (constant (F := Ideal) S_ .f32 0x3C23D70A#32) (ix1 k)))
      (broadcastInDim S8 ![] bcast_S_S8 (constant (F := Ideal) S_ .f32 0x3F800000#32) (ix1 k))
      (Ideal.div (broadcastInDim S8 ![] bcast_S_S8 (constant (F := Ideal) S_ .f32 0x3F800000#32) (ix1 k)) (l (ix1 k)))
    = _
  rw [hb, hb]
  rfl

/-- Row 0 of the table is the exponents. -/
theorem tab_row0 (l : FVec Ideal S8 .f32) (k : Fin 8) : tab l (ix2 (0 : Fin 2) k) = l (ix1 k) := by
  unfold tab
  refine (concatenate_apply_piece (t := S2x8) (0 : Fin 2) _ _ (ix2 (0 : Fin 2) k) 0 ?_ S1x8 _ ?_ rfl 0 ?_
    (ix2 (0 : Fin 1) k) (fun b hb => ?_) ?_).trans (row_apply l k)
  · exact Nat.zero_lt_two
  · rfl
  · rfl
  · match b with
    | ⟨0, _⟩ => exact absurd rfl hb
    | ⟨1, _⟩ => rfl
  · rfl

/-- Row 1 of the table is the prepared reciprocals. -/
theorem tab_row1 (l : FVec Ideal S8 .f32) (k : Fin 8) : tab l (ix2 (1 : Fin 2) k) = BoxCox.invOf (l (ix1 k)) := by
  unfold tab
  refine (concatenate_apply_piece (t := S2x8) (0 : Fin 2) _ _ (ix2 (1 : Fin 2) k) 1 ?_ S1x8 _ ?_ rfl 1 ?_
    (ix2 (0 : Fin 1) k) (fun b hb => ?_) ?_).trans ((row_apply (inv l) k).trans (inv_apply l k))
  · exact Nat.one_lt_two
  · rfl
  · rfl
  · match b with
    | ⟨0, _⟩ => exact absurd rfl hb
    | ⟨1, _⟩ => rfl
  · rfl

end Cert.KernelIdeal.Table

end
-- ==== Proof.KernelBody.lean ====
/-
  What the kernel's body leaves in its output block, read at one entry.

  The body loads the whole `x` block and the whole group-id block, reads the sixteen entries of the `[2, 8]` table one
  by one, picks the exponent and the prepared reciprocal by the chain of tests `g = 2, …, g = 8` falling back to
  column 0, and stores `|lam| < 0.01 ? log x : (exp (lam · log x) − 1) · inv` over the whole output block. At an entry
  this is the product form of the transform at the entry of `x`, with the chain's picks from row 0 and from row 1 of
  the table (`out_apply`).
-/
import proofs.«106995_g17008070492787_cont_7to1_1330_1_alg».proof.Proof.Gen.KernelIdeal.Frame
import proofs.«106995_g17008070492787_cont_7to1_1330_1_alg».proof.Proof.BoxCox
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx

theorem hz : (![0, 0] : Fin 2 → Nat) = fun _ => 0 := funext fun a => by fin_cases a <;> rfl

/-- One entry of the table, loaded as a `1 × 1` block at offset `off` and extracted, is the table at `(off 0, off 1)`. -/
theorem entry_ld (x0 : Vec Ideal S2x8 .f32) (off : Fin 2 → Nat) (inb : ∀ a, off a + S1x1.size a ≤ S2x8.size a)
    (hp : ∀ a, (![0, 0] : Fin 2 → Nat) a < S1x1.size a) :
    extractAt ![0, 0] (View.ld x0 (Rect.unit (s := S2x8) off S1x1.size inb)) hp
      = x0 (ix2 (⟨off 0, by have h : off 0 + 1 ≤ 2 := inb 0; omega⟩ : Fin 2)
          (⟨off 1, by have h : off 1 + 1 ≤ 8 := inb 1; omega⟩ : Fin 8)) := by
  show x0 ((Rect.unit (s := S2x8) off S1x1.size inb).emb _) = _
  refine congrArg x0 (funext fun a => Fin.ext ?_)
  rw [Rect.emb_apply]
  match a with
  | ⟨0, _⟩ => show off 0 + 1 * 0 = off 0; omega
  | ⟨1, _⟩ => show off 1 + 1 * 0 = off 1; omega

/-- The body's output block at an entry: the product form, its exponent and reciprocal the chain's picks from the
    table's two rows. -/
theorem out_apply (x0 : Vec Ideal S2x8 .f32) (x1 : Vec Ideal S512x200 .f32) (x2 : Vec Ideal S512x200 .i32)
    (y : S512x200.Idx) :
    out0_3 x0 x1 x2 y
      = BoxCox.kerElem (x1 y) (BoxCox.chainSel (x2 y) fun k => x0 (ix2 (0 : Fin 2) k))
          (BoxCox.chainSel (x2 y) fun k => x0 (ix2 (1 : Fin 2) k)) := by
  unfold out0_3
  rw [View.canon_unit_zero hz]
  simp only [View.ld_unit_zero (S := S512x200) hz]
  unfold k0_pay1 k0_pay2 k0_pay11 k0_pay13 k0_pay5 k0_pay7 k0_pay3 k0_pay4 k0_pay6 k0_pay8 k0_pay9 k0_pay10 k0_pay12
  simp only [r0_1, r0_2, r0_3, r0_4, r0_5, r0_6, r0_7, r0_8, r0_9, r0_10, r0_11, r0_12, r0_13, r0_14, r0_15, r0_16,
    ]
  rw [entry_ld x0 ![0, 0] inb_S2x8_S1x1_0_0 inpos_S1x1_p0_0,
    entry_ld x0 ![0, 1] inb_S2x8_S1x1_0_1 inpos_S1x1_p0_0,
    entry_ld x0 ![0, 2] inb_S2x8_S1x1_0_2 inpos_S1x1_p0_0,
    entry_ld x0 ![0, 3] inb_S2x8_S1x1_0_3 inpos_S1x1_p0_0,
    entry_ld x0 ![0, 4] inb_S2x8_S1x1_0_4 inpos_S1x1_p0_0,
    entry_ld x0 ![0, 5] inb_S2x8_S1x1_0_5 inpos_S1x1_p0_0,
    entry_ld x0 ![0, 6] inb_S2x8_S1x1_0_6 inpos_S1x1_p0_0,
    entry_ld x0 ![0, 7] inb_S2x8_S1x1_0_7 inpos_S1x1_p0_0,
    entry_ld x0 ![1, 0] inb_S2x8_S1x1_1_0 inpos_S1x1_p0_0,
    entry_ld x0 ![1, 1] inb_S2x8_S1x1_1_1 inpos_S1x1_p0_0,
    entry_ld x0 ![1, 2] inb_S2x8_S1x1_1_2 inpos_S1x1_p0_0,
    entry_ld x0 ![1, 3] inb_S2x8_S1x1_1_3 inpos_S1x1_p0_0,
    entry_ld x0 ![1, 4] inb_S2x8_S1x1_1_4 inpos_S1x1_p0_0,
    entry_ld x0 ![1, 5] inb_S2x8_S1x1_1_5 inpos_S1x1_p0_0,
    entry_ld x0 ![1, 6] inb_S2x8_S1x1_1_6 inpos_S1x1_p0_0,
    entry_ld x0 ![1, 7] inb_S2x8_S1x1_1_7 inpos_S1x1_p0_0]
  rfl

end Cert.KernelIdeal.Body

end
-- ==== Proof.KernelValue.lean ====
/-
  The kernel's output array as one function of its argument arrays.

  The grid has 32 points; point `t` works on rows `512 t … 512 t + 511` of `x`, of the group ids and of the output,
  all 200 columns, and on the whole `[2, 8]` table. So what point `t` writes back is block `t` of ONE array: entry by
  entry the product form of the transform, its exponent the chain's pick among the eight exponents and its reciprocal
  the prepared reciprocal of that pick — a function applied to every candidate commutes with the chain
  (`flushed_eq`). The 32 blocks tile the output (the point covering row `r` is `r / 512`), so after the run the output
  array is that function of the arguments (`final`, `run`).
-/
import proofs.«106995_g17008070492787_cont_7to1_1330_1_alg».proof.Proof.Gen.KernelIdeal.Value
import proofs.«106995_g17008070492787_cont_7to1_1330_1_alg».proof.Proof.KernelTable
import proofs.«106995_g17008070492787_cont_7to1_1330_1_alg».proof.Proof.KernelBody
import proofs.«106995_g17008070492787_cont_7to1_1330_1_alg».proof.Proof.BoxCox
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-- The exponent of an entry with group id `g`. -/
def lamOf (l : FVec Ideal S8 .f32) (g : BitVec 32) : EReal := BoxCox.chainSel g fun k => l (ix1 k)

/-- The kernel's output array: entry by entry the product form with the prepared reciprocal. -/
def KG (x : FVec Ideal S16384x200 .f32) (g : IVec S16384x200 32) (l : FVec Ideal S8 .f32) : FVec Ideal S16384x200 .f32 :=
  fun i => BoxCox.kerElem (x i) (lamOf l (g i)) (BoxCox.invOf (lamOf l (g i)))

variable (m : (ℓ : Loc nD τ sig) → Buf (Elt Ideal) ℓ) (ρ : Dev nD → PrngReg)

/-- The printed index maps over the grid: the table's block never moves, the `x` and group-id blocks move with the
    output's, and the output's block row is the point's number. -/
theorem idx_facts : ∀ t : Fin cfg0.N, win0_0.index t (0 : Fin 2) = 0 ∧ win0_0.index t (1 : Fin 2) = 0
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) = t.val ∧ win0_3.index t (1 : Fin 2) = 0 :=
  (by decide +kernel : ∀ t : Fin grid0.N, _)

/-- The `x` block at point `t`, read at an entry, is `x` at the entry's place in the array. -/
theorem xblk_apply (c : Dev nD) (t : Fin cfg0.N) (j : S512x200.Idx) :
    iblk m c 1 t j = V m c main_arg0 (((cfg0.win 1).blk t).view.emb j) := by
  unfold iblk
  rw [View.read_apply, cast_eq]

/-- The group-id block at point `t`, read at an entry. -/
theorem gblk_apply (c : Dev nD) (t : Fin cfg0.N) (j : S512x200.Idx) :
    iblk m c 2 t j = V m c main_arg1 (((cfg0.win 2).blk t).view.emb j) := by
  unfold iblk
  rw [View.read_apply, cast_eq]

/-- The table block at point `t`, read at an entry. -/
theorem tblk_apply (c : Dev nD) (t : Fin cfg0.N) (y : S2x8.Idx) :
    iblk m c 0 t y = V m c main_v8 (((cfg0.win 0).blk t).view.emb y) := by
  unfold iblk
  rw [View.read_apply, cast_eq]

/-- WHAT POINT `t` WRITES BACK is block `t` of `KG` of the arrays as the region finds them. -/
theorem flushed_eq (c : Dev nD) (t : Fin cfg0.N) :
    (dats m 0 c).flushed 3 t
      = ((cfg0.win 3).blk t).view.read (Elt Ideal)
          (KG (V m c main_arg0) (V m c main_arg1) (m ((c : Thread nD τ).loc main_arg2))) := by
  rw [Value.flushed3]
  funext j
  rw [View.read_apply, cast_eq]
  show out0_3 (iblk m c 0 t) (iblk m c 1 t) (iblk m c 2 t) j = _
  refine (Body.out_apply (iblk m c 0 t) (iblk m c 1 t) (iblk m c 2 t) j).trans ?_
  obtain ⟨e00, e01, e10, e11, e20, e21, e30, e31⟩ := idx_facts t
  have h1 : ((cfg0.win 1).blk t).view.emb j = ((cfg0.win 3).blk t).view.emb j := by
    funext a; apply Fin.ext
    match a with
    | ⟨0, _⟩ => show win0_1.index t (0 : Fin 2) * 512 + 1 * (j 0).val = win0_3.index t (0 : Fin 2) * 512 + 1 * (j 0).val; omega
    | ⟨1, _⟩ => show win0_1.index t (1 : Fin 2) * 200 + 1 * (j 1).val = win0_3.index t (1 : Fin 2) * 200 + 1 * (j 1).val; omega
  have h2 : ((cfg0.win 2).blk t).view.emb j = ((cfg0.win 3).blk t).view.emb j := by
    funext a; apply Fin.ext
    match a with
    | ⟨0, _⟩ => show win0_2.index t (0 : Fin 2) * 512 + 1 * (j 0).val = win0_3.index t (0 : Fin 2) * 512 + 1 * (j 0).val; omega
    | ⟨1, _⟩ => show win0_2.index t (1 : Fin 2) * 200 + 1 * (j 1).val = win0_3.index t (1 : Fin 2) * 200 + 1 * (j 1).val; omega
  have h0 : ∀ (r : Fin 2) (k : Fin 8), ((cfg0.win 0).blk t).view.emb (ix2 r k) = ix2 r k := by
    intro r k; funext a; apply Fin.ext
    match a with
    | ⟨0, _⟩ => show win0_0.index t (0 : Fin 2) * 2 + 1 * r.val = r.val; omega
    | ⟨1, _⟩ => show win0_0.index t (1 : Fin 2) * 8 + 1 * k.val = k.val; omega
  have hx : iblk m c 1 t j = V m c main_arg0 (((cfg0.win 3).blk t).view.emb j) :=
    (xblk_apply m c t j).trans (congrArg (V m c main_arg0) h1)
  have hgp : iblk m c 2 t j = V m c main_arg1 (((cfg0.win 3).blk t).view.emb j) :=
    (gblk_apply m c t j).trans (congrArg (V m c main_arg1) h2)
  have ht : ∀ (r : Fin 2) (k : Fin 8),
      iblk m c 0 t (ix2 r k) = Table.tab (m ((c : Thread nD τ).loc main_arg2)) (ix2 r k) := fun r k =>
    (tblk_apply m c t (ix2 r k)).trans
      ((congrArg (V m c main_v8) (h0 r k)).trans (congrFun (Table.V_main_v8 m c) (ix2 r k)))
  rw [hx, hgp]
  simp only [ht, Table.tab_row0, Table.tab_row1]
  rw [BoxCox.chainSel_map BoxCox.invOf]
  rfl

/-- An index of the array is in point `t`'s block iff each coordinate is in the block's range on its axis. -/
theorem mem_blk (t : Fin cfg0.N) (i : S16384x200.Idx) :
    i ∈ ((cfg0.win 3).blk t).view.set ↔ ∀ a : Fin 2, win0_3.index t a * S512x200.size a ≤ (i a).val
      ∧ (i a).val < win0_3.index t a * S512x200.size a + S512x200.size a := by
  show i ∈ ((View.whole main_v9).slice (win0_3.rect t)).set ↔ _
  rw [View.set_slice_whole, Rect.mem_set_unit]
  exact Iff.rfl

/-- The 32 blocks tile the output: row `r` is in point `r / 512`'s block. -/
theorem cover (i : S16384x200.Idx) :
    ∃ t : Fin cfg0.N, (cfg0.win 3).flush t = true ∧ i ∈ ((cfg0.win 3).blk t).view.set := by
  have hi0 : (i 0).val < 16384 := (i 0).isLt
  have hi1 : (i 1).val < 200 := (i 1).isLt
  have hN : cfg0.N = 32 := N_0
  let t : Fin cfg0.N := ⟨(i 0).val / 512, by rw [hN]; omega⟩
  refine ⟨t, flush0_3 t, ?_⟩
  obtain ⟨-, -, -, -, -, -, e30, e31⟩ := idx_facts t
  have et : t.val = (i 0).val / 512 := rfl
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 200 ≤ (i 1).val ∧ (i 1).val < win0_3.index t (1 : Fin 2) * 200 + 200; omega

/-- THE ARRAY after the run is `KG` of the argument arrays. -/
theorem final (c : Dev nD) :
    (dats m 0 c).arrAt 3 cfg0.N
      = KG (m ((c : Thread nD τ).loc main_arg0)) (m ((c : Thread nD τ).loc main_arg1)) (m ((c : Thread nD τ).loc main_arg2)) := by
  have h := (dats m 0 c).arrAt_eq_of_cover 3
    (KG (V m c main_arg0) (V m c main_arg1) (m ((c : Thread nD τ).loc main_arg2)))
    (fun t _ => flushed_eq m c t) cover
  rw [V_main_arg0, V_main_arg1] at h
  exact h

/-- The frame run re-posted: the output array at `KG` of the arguments, the arguments unchanged. -/
theorem run : θ_run defs (onTc (τ := τ) (main (F := Ideal))) ⟨m, fun _ => 0, ρ⟩ fun r => ∀ c : Dev nD,
      r.2.mem ((c : Thread nD τ).loc main_v9)
          = KG (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.LibFiniteInputs.lean ====
/-
  From the printed precondition "every float input is finite" to "every entry is a real number", at the extended
  reals, for arrays of any shape.

  The precondition prints, per input `x`, as `jnp.all(|x| < +inf)`: the element-wise comparison of `|x|` against the
  f32 infinity word, reduced by `and` over every axis from the constant 1; several inputs are joined by `and`. At the
  extended reals `|a| = max a (-a)` and the infinity word is `⊤`, so the comparison holds at an entry exactly when
  the entry is neither `⊤` nor `⊥`: a real number. The lemmas here are stated over the printed term's shape, generic
  in the array's shape and reduced axes, so that a certificate's own precondition is an instance by unfolding.
-/
import Idealize.ShloMosaic.PureOps.Ideal
import Idealize.ShloMosaic.PureOps.Ideal.Laws
import Idealize.ShloMosaic.Lib.ReduceAll
import Idealize.ShloMosaic.Lib.ValueIdx

noncomputable section

namespace Cert.LibFiniteInputs

open Idealize.ShloMosaic

/-- The rank-0 shape has one index. -/
instance : Subsingleton (⟨0, ![]⟩ : Shape).Idx := ⟨fun a b => funext fun d => d.elim0⟩

/-- The f32 word `0x7F800000` is `+∞` at the extended reals. -/
theorem ofBits_inf_f32 : Ideal.ofBits .f32 0x7F800000#32 = (⊤ : EReal) := by
  simp [Ideal.ofBits, Ideal.ieee]

/-- An extended real whose absolute value `max a (-a)` is below `⊤` is a real number. -/
theorem real_of_abs_lt_top (a : EReal) (h : max a (-a) < ⊤) : ∃ r : ℝ, a = (r : EReal) := by
  induction a using EReal.rec with
  | bot => simp at h
  | coe r => exact ⟨r, rfl⟩
  | top => simp at h

/-- One entry: the printed comparison `|a| < +inf` coming out 1 says `a` is a real number. -/
theorem real_of_cmp_one (a : Ideal .f32)
    (h : FloatOps.cmpf .olt (FloatOps.absf a) (FloatOps.ofBits (F := Ideal) .f32 0x7F800000#32) = 1#1) :
    ∃ r : ℝ, (a : EReal) = (r : EReal) := by
  have h2 : BitVec.ofBool (decide (max (a : EReal) (-a) < Ideal.ofBits .f32 0x7F800000#32)) = 1#1 := h
  have h' : max (a : EReal) (-a) < Ideal.ofBits .f32 0x7F800000#32 := by
    by_contra hn
    rw [decide_eq_false hn] at h2
    exact absurd h2 (by decide)
  rw [ofBits_inf_f32] at h'
  exact real_of_abs_lt_top a h'

/-- One input: `jnp.all(|x| < +inf)` coming out 1 says every entry of `x` is a real number. -/
theorem all_real {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf x) (broadcastInDim s ![] hb (constant ⟨0, ![]⟩ .f32 0x7F800000#32)))
          (constantI ⟨0, ![]⟩ 1 1#1) hr hu ValueIdx.ix0 = 1#1) :
    ∀ i : s.Idx, ∃ r : ℝ, (x i : EReal) = (r : EReal) := by
  intro i
  have h1 := Host.reduce_andi_all _ _ hr hu ValueIdx.ix0 e i
  exact real_of_cmp_one (x i) h1

/-- Two inputs joined by `and`: both arrays hold real numbers throughout. -/
theorem both_real {s : Shape} {axes : List (Fin s.rank)} (x y : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : andi
          (Host.reduce IntOp.andi
            (cmpf .olt (Host.absf x) (broadcastInDim s ![] hb (constant ⟨0, ![]⟩ .f32 0x7F800000#32)))
            (constantI ⟨0, ![]⟩ 1 1#1) hr hu)
          (Host.reduce IntOp.andi
            (cmpf .olt (Host.absf y) (broadcastInDim s ![] hb (constant ⟨0, ![]⟩ .f32 0x7F800000#32)))
            (constantI ⟨0, ![]⟩ 1 1#1) hr hu) = fun _ => 1#1) :
    (∀ i : s.Idx, ∃ r : ℝ, (x i : EReal) = (r : EReal)) ∧ (∀ i : s.Idx, ∃ r : ℝ, (y i : EReal) = (r : EReal)) := by
  have h0 := congrFun e ValueIdx.ix0
  have h1 : IntOp.andi _ _ = 1#1 := h0
  obtain ⟨ex, ey⟩ := IntOp.andi_eq_one.mp h1
  exact ⟨all_real x hb hr hu ex, all_real y hb hr hu ey⟩

end Cert.LibFiniteInputs

end
-- ==== Proof.LibAllPositive.lean ====
/-
  A printed `jnp.all(d > 0)`, and the second of two tests joined by `and`, for arrays of any shape.

  `jnp.all(d > 0)` prints as the element-wise comparison of `d` against an array `z` of zeros, reduced by `and` over
  every axis from the constant 1. At the extended reals the comparison at an entry is `z < d` there, so the reduction
  coming out 1 says every entry of `d` is positive (`all_pos`). A precondition of two such tests is their `and`; coming
  out 1 everywhere it gives each test 1 (`first_of_and`, `second_of_and`). Stated over the printed term's shape, generic
  in the array's shape and the reduced axes, so that a certificate's own precondition is an instance by unfolding and
  the reduction over a long axis is never evaluated.
-/
import Idealize.ShloMosaic.PureOps.Ideal
import Idealize.ShloMosaic.PureOps.Ideal.Laws
import Idealize.ShloMosaic.Lib.ReduceAll
import Idealize.ShloMosaic.Lib.ValueIdx

noncomputable section

namespace Cert.LibAllPositive

open Idealize.ShloMosaic

/-- The rank-0 shape has one index. -/
instance : Subsingleton (⟨0, ![]⟩ : Shape).Idx := ⟨fun a b => funext fun d => d.elim0⟩

/-- One entry: the printed comparison `a > z` coming out 1 says `z < a`. -/
theorem lt_of_cmp_one (a z : Ideal .f32) (h : FloatOps.cmpf .ogt a z = 1#1) : (z : EReal) < a := by
  have h2 : BitVec.ofBool (decide ((z : EReal) < a)) = 1#1 := h
  by_contra hn
  rw [decide_eq_false hn] at h2
  exact absurd h2 (by decide)

/-- `jnp.all(d > z)` coming out 1, with `z` an array of zeros, says every entry of `d` is positive. -/
theorem all_pos {s : Shape} {axes : List (Fin s.rank)} (d z : FVec Ideal s .f32) (hz : ∀ j, (z j : EReal) = 0)
    (hr : s.ReducesTo axes ⟨0, ![]⟩) (hu : 0 < (⟨0, ![]⟩ : Shape).numel)
    (e : Host.reduce IntOp.andi (cmpf .ogt d z) (constantI ⟨0, ![]⟩ 1 1#1) hr hu ValueIdx.ix0 = 1#1) :
    ∀ j : s.Idx, (0 : EReal) < d j := by
  intro j
  have h1 := Host.reduce_andi_all _ _ hr hu ValueIdx.ix0 e j
  have h2 := lt_of_cmp_one (d j) (z j) h1
  rwa [hz j] at h2

/-- Two tests joined by `and` coming out 1: the first is 1. -/
theorem first_of_and (a b : IVec ⟨0, ![]⟩ 1) (e : andi a b = fun _ => 1#1) : a ValueIdx.ix0 = 1#1 := by
  have h1 : IntOp.andi (a ValueIdx.ix0) (b ValueIdx.ix0) = 1#1 := congrFun e ValueIdx.ix0
  exact (IntOp.andi_eq_one.mp h1).1

/-- Two tests joined by `and` coming out 1: the second is 1. -/
theorem second_of_and (a b : IVec ⟨0, ![]⟩ 1) (e : andi a b = fun _ => 1#1) : b ValueIdx.ix0 = 1#1 := by
  have h1 : IntOp.andi (a ValueIdx.ix0) (b ValueIdx.ix0) = 1#1 := congrFun e ValueIdx.ix0
  exact (IntOp.andi_eq_one.mp h1).2

end Cert.LibAllPositive

end
-- ==== Proof.Domain.lean ====
/-
  What the precondition says, entry by entry.

  The printed precondition is the conjunction of five tests, each an `and` over a whole array: every entry of `x` and
  of the exponent table `l` has finite absolute value, every entry of `x` is positive, and every group id is at least
  1 and at most 8 (compared as signed words). All five coming out 1 says: each `x` entry is a positive real number,
  each exponent is a real number, and each group id read signed lies in 1 … 8 (`dom_of_pre`).
-/
import proofs.«106995_g17008070492787_cont_7to1_1330_1_alg».proof.Pre_finite_inputs
import proofs.«106995_g17008070492787_cont_7to1_1330_1_alg».proof.Proof.LibFiniteInputs
import proofs.«106995_g17008070492787_cont_7to1_1330_1_alg».proof.Proof.LibAllPositive
import Idealize.ShloMosaic.Lib.ReduceAll
import Idealize.ShloMosaic.Lib.Affine

noncomputable section

namespace Cert.Domain

open Idealize.ShloMosaic Cert.Pre_finite_inputs

/-- The domain of the transform: positive real entries, real exponents, group ids in 1 … 8. -/
structure Dom (x : FVec Ideal S16384x200 .f32) (g : IVec S16384x200 32) (l : FVec Ideal S8 .f32) : Prop where
  x_pos : ∀ i, ∃ r : ℝ, 0 < r ∧ (x i : EReal) = (r : EReal)
  l_real : ∀ k, ∃ r : ℝ, (l k : EReal) = (r : EReal)
  g_range : ∀ i, 1 ≤ (g i).toInt ∧ (g i).toInt ≤ 8

/-- The zero word is the number zero. -/
theorem ofBits_zero : Ideal.ofBits .f32 0x00000000#32 = 0 := by
  simp [Ideal.ofBits, Ideal.ieee]

variable [Facts]

/-- The five tests all 1 give the domain. -/
theorem dom_of_pre (x : FVec Ideal S16384x200 .f32) (g : IVec S16384x200 32) (l : FVec Ideal S8 .f32)
    (h : fn (F := Ideal) x g l = fun _ => 1#1) : Dom x g l := by
  have h0 := congrFun h ValueIdx.ix0
  dsimp only [fn, fn_part1] at h0
  have h0' : IntOp.andi _ _ = 1#1 := h0
  obtain ⟨h1, hle⟩ := IntOp.andi_eq_one.mp h0'
  have h1' : IntOp.andi _ _ = 1#1 := h1
  obtain ⟨h2, hge⟩ := IntOp.andi_eq_one.mp h1'
  have h2' : IntOp.andi _ _ = 1#1 := h2
  obtain ⟨h3, hpos⟩ := IntOp.andi_eq_one.mp h2'
  have h3' : IntOp.andi _ _ = 1#1 := h3
  obtain ⟨hfx, hfl⟩ := IntOp.andi_eq_one.mp h3'
  have hx := Cert.LibFiniteInputs.all_real x _ _ _ hfx
  have hl := Cert.LibFiniteInputs.all_real l _ _ _ hfl
  have hp := Cert.LibAllPositive.all_pos x _ (fun j => ofBits_zero) _ _ hpos
  refine ⟨fun i => ?_, hl, fun i => ⟨?_, ?_⟩⟩
  · obtain ⟨r, hr⟩ := hx i
    refine ⟨r, ?_, hr⟩
    have := hp i
    rw [hr] at this
    exact_mod_cast this
  · have e := Host.reduce_andi_all _ _ _ _ ValueIdx.ix0 hge i
    exact IntOp.cmpi_sge.mp e
  · have e := Host.reduce_andi_all _ _ _ _ ValueIdx.ix0 hle i
    exact IntOp.cmpi_sle.mp e

end Cert.Domain

end
-- ==== Proof.RefValue.lean ====
/-
  The reference's result, read at one entry, on the domain.

  With every group id in 1 … 8 the start index `group − 1` lies in 0 … 7: it is never moved, the in-range test is 1 at
  every entry, so its `and` over the unit axis is 1 and the select keeps the gathered exponent, and the gather's clamp
  is the identity. The exponent picked at an entry with group id `g` is therefore `l (g − 1)`, which is what the chain of
  tests `g = 8, …, g = 2` picks (`takeLam_apply`). The rest of the reference is entry by entry the quotient form of the
  transform (`refOut_apply`).
-/
import proofs.«106995_g17008070492787_cont_7to1_1330_1_alg».proof.Proof.RefRun
import proofs.«106995_g17008070492787_cont_7to1_1330_1_alg».proof.Proof.BoxCox
import Idealize.ShloMosaic.Lib.ValueIdx
import Idealize.ShloMosaic.Lib.IdealHost
import Idealize.ShloMosaic.Lib.Pipeline.Value
import Idealize.ShloMosaic.PureOps.Reduce

noncomputable section

namespace Cert.ReferenceIdeal.RefValue

open Cert.ReferenceIdeal Cert.ReferenceIdeal.Gen Cert.ReferenceIdeal.RefRun Idealize.ShloMosaic Idealize.ShloMosaic.ValueIdx

/-! ## An `and`-reduce of ones -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : IntOp.andi 1#1 (f a) = 1#1 := by rw [h a (List.mem_cons_self ..)]; decide
    rw [List.foldl_cons, ha]
    exact foldl_andi_one f l fun n hn => h n (List.mem_cons_of_mem _ hn)

/-- A reduce by `and` from 1 of an array that is 1 everywhere is 1 at every result index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun n _ => hx n

/-! ## The start index of one entry -/

/-- The start index of an entry with group id `g`: `g − 1`, moved up by 8 when negative. -/
def startOf (g : BitVec 32) : BitVec 32 :=
  Scalar.select (IntOp.cmpi .slt (IntOp.subi g 1#32) 0#32) (IntOp.addi (IntOp.subi g 1#32) 8#32) (IntOp.subi g 1#32)

/-- For a group id in 1 … 8 the start index passes both range tests. -/
theorem startOf_inrange (g : BitVec 32) (h1 : 1 ≤ g.toInt) (h8 : g.toInt ≤ 8) :
    IntOp.andi (IntOp.cmpi .sge (startOf g) 0#32) (IntOp.cmpi .sle (startOf g) 7#32) = 1#1 := by
  rcases BoxCox.group_cases g h1 h8 with h | h | h | h | h | h | h | h <;> subst h <;> decide

/-- For a group id in 1 … 8 the exponent at the clamped start index is the one the chain of tests picks. -/
theorem pick_eq {α : Type} (t : Fin 8 → α) (g : BitVec 32) (h1 : 1 ≤ g.toInt) (h8 : g.toInt ≤ 8)
    (s : BitVec 32) (hs : s = startOf g) (hlt : min s.toInt.toNat (8 - 1) < 8) :
    t ⟨min s.toInt.toNat (8 - 1), hlt⟩ = BoxCox.chainSel g t := by
  subst hs
  rcases BoxCox.group_cases g h1 h8 with h | h | h | h | h | h | h | h <;> subst h <;>
    exact congrArg t (Fin.ext (by decide +revert))

/-! ## The exponent array and the result at an entry -/

/-- The gather's start index for entry `j` is the entry's own. -/
theorem startArr_apply (g : IVec S16384x200 32) (j : S16384x200.Idx) : startArr g (takeIdx j) = startOf (g j) := by
  unfold startArr
  rw [broadcastInDim_apply _ _ _ _ j (fun a => by
    match a with
    | ⟨0, _⟩ => rfl
    | ⟨1, _⟩ => rfl)]
  rfl

/-- ON THE DOMAIN the in-range test is 1 at every index. -/
theorem inRange_one (g : IVec S16384x200 32) (hg : ∀ i, 1 ≤ (g i).toInt ∧ (g i).toInt ≤ 8)
    (i : S16384x200x1.Idx) : inRange g i = 1#1 :=
  startOf_inrange (g _) (hg _).1 (hg _).2

/-- ON THE DOMAIN the exponent `take` picks at an entry is the chain's pick among `l 0 … l 7`. -/
theorem takeLam_apply (g : IVec S16384x200 32) (l : FVec Ideal S8 .f32)
    (hg : ∀ i, 1 ≤ (g i).toInt ∧ (g i).toInt ≤ 8) (j : S16384x200.Idx) :
    takeLam g l j = BoxCox.chainSel (g j) (fun k => l (ix1 k)) := by
  unfold takeLam
  rw [select_apply, reduce_andi_one _ _ _ _ j rfl (inRange_one g hg), select_one]
  refine (gather_take_apply (by decide) gather_S8_S16384x200x1_S16384x200_n_0_n_n_0_2_1_wf l (startArr g) j).trans ?_
  exact pick_eq (fun k => l (ix1 k)) (g j) (hg j).1 (hg j).2 _ (startArr_apply g j) _

/-! ## The host's elementwise operations at an entry, for any shape -/

section AtEntry
variable {s : Shape}

theorem absf_at (v : FVec Ideal s .f32) (j : s.Idx) : Host.absf v j = max (v j) (-(v j)) := rfl
theorem log_at (v : FVec Ideal s .f32) (j : s.Idx) : Host.log v j = Ideal.log (v j) := rfl
theorem powf_at (a b : FVec Ideal s .f32) (j : s.Idx) : Host.powf a b j = Ideal.pow (a j) (b j) := rfl
theorem divf_at (a b : FVec Ideal s .f32) (j : s.Idx) : Host.divf a b j = Ideal.div (a j) (b j) := rfl
theorem cmp_at (p : CmpFPredicate) (a b : Ideal .f32) : FloatOps.cmpf p a b = Ideal.cmp p a b := rfl

end AtEntry

/-- The reference's result at an entry is the quotient form of the transform at the entry and its exponent. -/
theorem refOut_apply (x : FVec Ideal S16384x200 .f32) (g : IVec S16384x200 32) (l : FVec Ideal S8 .f32)
    (j : S16384x200.Idx) :
    refOut x g l j = BoxCox.refElem (x j) (takeLam g l j) := by
  unfold refOut
  generalize takeLam g l = lam
  have hb : ∀ w, broadcastInDim S16384x200 ![] bcast_S_S16384x200 (constant (F := Ideal) S_ .f32 w) j
      = Ideal.ofBits .f32 w := fun w => broadcastInDim_scalar_apply _ _ _
  rw [select_apply, cmpf_apply, hb, absf_at, log_at, divf_at, subf_apply, powf_at, hb, cmp_at]
  rfl

end Cert.ReferenceIdeal.RefValue

end
-- ==== Proof.Bridge.lean ====
/-
  On the domain the reference's result array is the kernel's.

  Entry by entry: the reference's exponent is the chain's pick among the eight exponents (group ids in 1 … 8), which is
  one of them and hence a real number; the entry of `x` is a positive real; and for a positive real entry and a real
  exponent the quotient form `(x ^ lam − 1) / lam` and the product form `(exp (lam · log x) − 1) · inv` with the prepared
  reciprocal are one number.
-/
import proofs.«106995_g17008070492787_cont_7to1_1330_1_alg».proof.Proof.RefValue
import proofs.«106995_g17008070492787_cont_7to1_1330_1_alg».proof.Proof.KernelValue
import proofs.«106995_g17008070492787_cont_7to1_1330_1_alg».proof.Proof.Domain
import proofs.«106995_g17008070492787_cont_7to1_1330_1_alg».proof.Proof.BoxCox

noncomputable section

namespace Cert.Bridge

open Idealize.ShloMosaic Idealize.ShloMosaic.ValueIdx

/-- The chain picks one of its candidates. -/
theorem chainSel_mem {α : Type} (g : BitVec 32) (t : Fin 8 → α) : ∃ k, BoxCox.chainSel g t = t k := by
  unfold BoxCox.chainSel Scalar.select
  split_ifs <;> exact ⟨_, rfl⟩

/-- ON THE DOMAIN the reference's result array is the kernel's output array. -/
theorem ref_eq_kernel (x : FVec Ideal Cert.ReferenceIdeal.S16384x200 .f32) (g : IVec Cert.ReferenceIdeal.S16384x200 32)
    (l : FVec Ideal Cert.ReferenceIdeal.S8 .f32) (hd : Cert.Domain.Dom x g l) :
    Cert.ReferenceIdeal.RefRun.refOut x g l = Cert.KernelIdeal.Whole.KG x g l := by
  funext j
  rw [Cert.ReferenceIdeal.RefValue.refOut_apply, Cert.ReferenceIdeal.RefValue.takeLam_apply g l hd.g_range j]
  show _ = BoxCox.kerElem (x j) (BoxCox.chainSel (g j) fun k => l (ix1 k))
    (BoxCox.invOf (BoxCox.chainSel (g j) fun k => l (ix1 k)))
  obtain ⟨r, hr, hx⟩ := hd.x_pos j
  obtain ⟨k, hk⟩ := chainSel_mem (g j) fun k => l (ix1 k)
  obtain ⟨s, hs⟩ := hd.l_real (ix1 k)
  rw [hk]
  have hx' : (x j : EReal) = (r : EReal) := hx
  have hs' : (l (ix1 k) : EReal) = (s : EReal) := hs
  rw [hx', hs']
  exact (BoxCox.kerElem_eq r s hr).symm

end Cert.Bridge

end
-- ==== Proof.lean ====
/- The grouped Box–Cox transform: a kernel that picks each entry's exponent by a chain of tests on its group id and
   computes `(exp (lam · log x) − 1) · inv` against a prepared reciprocal, and a reference that gathers the exponent and
   computes `(x ^ lam − 1) / lam`; both return `log x` where `|lam| < 0.01`.

   The three frames: the two kernel programs' are their generated frame certificates; the reference's is its run with
   the result dropped. The idealization rewrote nothing, so `preserves` is `True`. `algebraic`: the kernel's output
   array is one function of its arguments (blocks of 512 rows tiling the array), the reference's result another, and
   on the precondition's domain — entries of `x` positive reals, exponents real, group ids in 1 … 8 — the two agree
   entry by entry: `x ^ lam = exp (log x · lam)` for `0 < x`, and dividing by a nonzero real is multiplying by its
   reciprocal. -/
import proofs.«106995_g17008070492787_cont_7to1_1330_1_alg».proof.Defs
import proofs.«106995_g17008070492787_cont_7to1_1330_1_alg».proof.Proof.Gen.Kernel
import proofs.«106995_g17008070492787_cont_7to1_1330_1_alg».proof.Proof.Gen.Kernel.Skeleton
import proofs.«106995_g17008070492787_cont_7to1_1330_1_alg».proof.Proof.Gen.Kernel.Launch
import proofs.«106995_g17008070492787_cont_7to1_1330_1_alg».proof.Proof.Gen.Kernel.Points
import proofs.«106995_g17008070492787_cont_7to1_1330_1_alg».proof.Proof.Gen.Kernel.Frame
import proofs.«106995_g17008070492787_cont_7to1_1330_1_alg».proof.Proof.Gen.KernelIdeal
import proofs.«106995_g17008070492787_cont_7to1_1330_1_alg».proof.Proof.Gen.KernelIdeal.Skeleton
import proofs.«106995_g17008070492787_cont_7to1_1330_1_alg».proof.Proof.Gen.KernelIdeal.Launch
import proofs.«106995_g17008070492787_cont_7to1_1330_1_alg».proof.Proof.Gen.KernelIdeal.Points
import proofs.«106995_g17008070492787_cont_7to1_1330_1_alg».proof.Proof.Gen.KernelIdeal.Frame
import proofs.«106995_g17008070492787_cont_7to1_1330_1_alg».proof.Proof.Gen.KernelIdeal.Value
import proofs.«106995_g17008070492787_cont_7to1_1330_1_alg».proof.Proof.Gen.ReferenceIdeal
import proofs.«106995_g17008070492787_cont_7to1_1330_1_alg».proof.Proof.Gen.Pre_finite_inputs
import proofs.«106995_g17008070492787_cont_7to1_1330_1_alg».proof.Proof.RefRun
import proofs.«106995_g17008070492787_cont_7to1_1330_1_alg».proof.Proof.KernelValue
import proofs.«106995_g17008070492787_cont_7to1_1330_1_alg».proof.Proof.Domain
import proofs.«106995_g17008070492787_cont_7to1_1330_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both programs end with the kernel's output function of the arguments: the kernel by its value, the reference
    because on the precondition's domain its result function is the same array. -/
theorem algebraic : Cert.algebraic_KernelIdeal_ReferenceIdeal := by
  intro m ρ m' ρ' hpre hagree
  refine ⟨fun c => Cert.KernelIdeal.Whole.KG
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact Cert.Bridge.ref_eq_kernel _ _ _ (Cert.Domain.dom_of_pre _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
